-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S16x8 .f32) (main_arg6 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x8 .f32 := Host.absf main_arg5
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x8 .f32) (main_arg6 : FVec F S8 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x8 : Shape := ⟨2, ![16, 8]⟩
abbrev S8 : Shape := ⟨1, ![8]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x8 : Shape := ⟨2, ![100000, 8]⟩
abbrev S2000x8 : Shape := ⟨2, ![2000, 8]⟩
abbrev S3300000x8 : Shape := ⟨2, ![3300000, 8]⟩
abbrev S1x8 : Shape := ⟨2, ![1, 8]⟩
abbrev S100000x1 : Shape := ⟨2, ![100000, 1]⟩

abbrev nBuf : Space → Nat
  | .hbm => 107
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x8, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x8, .f32⟩
  | .hbm, ⟨82, _⟩ => ⟨S3300000x1, .f32⟩
  | .hbm, ⟨83, _⟩ => ⟨S3300000x8, .f32⟩
  | .hbm, ⟨84, _⟩ => ⟨S3300000x8, .f32⟩
  | .hbm, ⟨85, _⟩ => ⟨S_, .f32⟩
  | .hbm, ⟨86, _⟩ => ⟨S100000x8, .f32⟩
  | .hbm, ⟨87, _⟩ => ⟨S3300000x1, .i32⟩
  | .hbm, ⟨88, _⟩ => ⟨S100000x8, .f32⟩
  | .hbm, ⟨89, _⟩ => ⟨S1x8, .f32⟩
  | .hbm, ⟨90, _⟩ => ⟨S100000x8, .f32⟩
  | .hbm, ⟨91, _⟩ => ⟨S100000x8, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x8, .f32⟩
  | .hbm, ⟨99, _⟩ => ⟨S100000x8, .f32⟩
  | .hbm, ⟨100, _⟩ => ⟨S100000x8, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x8, .f32⟩
  | .hbm, ⟨106, _⟩ => ⟨S100000x8, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S16x8, .f32⟩
  | .local _ .vmem, ⟨8, _⟩ => ⟨S2000x8, .f32⟩
  | .local _ .vmem, ⟨9, _⟩ => ⟨S2000x8, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  inb_S16x8_S16x8_0_0 : ∀ a, (![0, 0] : Fin 2 → Nat) a + S16x8.size a ≤ S16x8.size a
  h_S16x8 : 0 < S16x8.numel
  inb_S2000x8_S2000x8_0_0 : ∀ a, (![0, 0] : Fin 2 → Nat) a + S2000x8.size a ≤ S2000x8.size a
  h_S2000x8 : 0 < S2000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x8_S2000x8_1_0_0_1_n_n_wf : DotDims.WF S2000x16 S16x8 S2000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x8.size a ≤ S16x8.size a
  hwx1_1 : ∀ i : grid1.Coords, EltTy.bits .f32 = 32 ∨ (Rect.block (s := S16x8) S16x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x8.size a ≤ S100000x8.size a
  hwx1_2 : ∀ i : grid1.Coords, EltTy.bits .f32 = 32 ∨ (Rect.block (s := S100000x8) S2000x8.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x8_S2000x8_1_0_0_1_n_n : DotDims S2000x16 S16x8 S2000x8 where
  lhsContracting := [1]
  rhsContracting := [0]
  lhsNonContracting := [0]
  rhsNonContracting := [1]
  lhsBatch := []
  rhsBatch := []
  wf := dot_S2000x16_S16x8_S2000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x8 : Shape := ⟨2, ![16, 8]⟩
abbrev S8 : Shape := ⟨1, ![8]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x8 : Shape := ⟨2, ![100000, 8]⟩
abbrev S3300000x8 : Shape := ⟨2, ![3300000, 8]⟩
abbrev S1x8 : Shape := ⟨2, ![1, 8]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x8, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x8, .f32⟩
  | .hbm, ⟨82, _⟩ => ⟨S3300000x1, .f32⟩
  | .hbm, ⟨83, _⟩ => ⟨S3300000x8, .f32⟩
  | .hbm, ⟨84, _⟩ => ⟨S3300000x8, .f32⟩
  | .hbm, ⟨85, _⟩ => ⟨S_, .f32⟩
  | .hbm, ⟨86, _⟩ => ⟨S100000x8, .f32⟩
  | .hbm, ⟨87, _⟩ => ⟨S3300000x1, .i32⟩
  | .hbm, ⟨88, _⟩ => ⟨S100000x8, .f32⟩
  | .hbm, ⟨89, _⟩ => ⟨S1x8, .f32⟩
  | .hbm, ⟨90, _⟩ => ⟨S100000x8, .f32⟩
  | .hbm, ⟨91, _⟩ => ⟨S100000x8, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x8, .f32⟩
  | .hbm, ⟨99, _⟩ => ⟨S100000x8, .f32⟩
  | .hbm, ⟨100, _⟩ => ⟨S100000x8, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x8, .f32⟩
  | .hbm, ⟨106, _⟩ => ⟨S100000x8, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.KernelRun.lean ====
/-
  The idealized kernel's run with its result named.

  The program is a line of host operations with two pipelined products in it. The contents of the core's buffers at
  each boundary are a fold through the program: a stretch of host operations rewrites its own results, a pipelined
  region leaves its arrays at what its write-backs left. The final state holds every unscoped buffer at the last
  fold, so in particular the result buffer holds the last fold's value there, and each argument buffer its launch
  contents.
-/
import proofs.«165263_j14147622273472_1_alg».proof.Proof.Gen.KernelIdeal.Frame

set_option maxRecDepth 16384

noncomputable section

namespace Cert.KernelIdeal.Valued

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run : θ_run defs (onTc (τ := τ) (main (F := F))) ⟨m, fun _ => 0, ρ⟩ (fun r => ∀ c : Dev nD,
      r.2.mem ((c.tc : Thread nD τ).loc main_v67) = W9 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v67 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Valued

end
-- ==== Proof.LibFoldCut.lean ====
/-
  A fold of host operations, cut into stretches.

  The fold of a list of operations over a memory is the fold of its second stretch over the fold of its first; and an
  operation whose one result reference is in a given list writes only inside that list — the form in which "this stretch
  leaves that reference alone" is decided over references, once per stretch.
-/
import Idealize.ShloMosaic.Lib.StableHlo.Run

noncomputable section

namespace Idealize.ShloMosaic.StableHlo

variable {τ : Topo} {sig : RefSig} {Val : EltTy → Type}

/-- The fold over two stretches, one after the other. -/
theorem after_append (l1 l2 : List (HloOp τ sig Val)) (V : Valuation τ sig Val) :
    after (l1 ++ l2) V = after l2 (after l1 V) := by
  induction l1 generalizing V with
  | nil => rfl
  | cons op l ih => rw [List.cons_append, after_cons, after_cons, ih]

/-- A result reference that is in the list `W` is, as a device buffer, in `W`'s set. -/
theorem singleton_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

end Idealize.ShloMosaic.StableHlo

end
-- ==== Proof.RefRun.lean ====
/-
  The idealized reference as a line of operations, cut where the kernel is cut.

  The reference program is one straight line of host operations: the edge normalization (self-loops appended, weighted
  degrees by a scatter-add, inverse square roots gathered at both ends of every edge), a dense product, the first
  aggregation (gather the transformed rows at the sources, scale by the edge norms, scatter-add at the destinations, add
  the bias, clip at zero), a second dense product, and the second aggregation followed by a row-wise log-softmax.
  Here the line is listed in five pieces — the normalization, the first product, the first aggregation, the second
  product, the second aggregation — and its run is read back as the fold of these operations over the launch contents.
-/
import proofs.«165263_j14147622273472_1_alg».proof.Proof.Gen.ReferenceIdeal
import Idealize.ShloMosaic.Lib.StableHlo.Run
import proofs.«165263_j14147622273472_1_alg».proof.Proof.LibFoldCut

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The edge normalization: sources and destinations with self-loops, edge weights with ones appended, the weighted
    degrees, their guarded inverse square roots, and the norm of every edge. -/
abbrev normOps : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-- The first dense product, features by the first weight matrix. -/
abbrev dense1 : HloOp τ sig (Elt F) :=
  binary main_arg0 main_arg3 main_v32 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F))

/-- The first aggregation: gather at the sources, scale, scatter-add at the destinations, add the bias, clip at zero. -/
abbrev layer1Ops : List (HloOp τ sig (Elt F)) :=
  [ nullary main_c_6 (constantI S_ 32 0#32),
    unary main_c_6 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf ]

/-- The second dense product, hidden activations by the second weight matrix. -/
abbrev dense2 : HloOp τ sig (Elt F) :=
  binary main_v49 main_arg5 main_v50 ((fun l r => Host.dotGeneral dot_S100000x16_S16x8_S100000x8_1_0_0_1_n_n none l r) : (⟨S100000x16, .f32⟩ : BufTy).Contents (Elt F) → (⟨S16x8, .f32⟩ : BufTy).Contents (Elt F) → (⟨S100000x8, .f32⟩ : BufTy).Contents (Elt F))

/-- The second aggregation and the row-wise log-softmax. -/
abbrev layer2Ops : List (HloOp τ sig (Elt F)) :=
  [ nullary main_c_9 (constantI S_ 32 0#32),
    unary main_c_9 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    unary main_v31 main_v58 (broadcastInDim S3300000x1 ![0] bcast_S3300000_S3300000x1_0 : (⟨S3300000, .f32⟩ : BufTy).Contents (Elt F) → (⟨S3300000x1, .f32⟩ : BufTy).Contents (Elt F)),
    unary main_v58 main_v59 (broadcastInDim S3300000x8 ![0, 1] bcast_S3300000x1_S3300000x8_0_1 : (⟨S3300000x1, .f32⟩ : BufTy).Contents (Elt F) → (⟨S3300000x8, .f32⟩ : BufTy).Contents (Elt F)),
    binary main_v57 main_v59 main_v60 (mulf : (⟨S3300000x8, .f32⟩ : BufTy).Contents (Elt F) → (⟨S3300000x8, .f32⟩ : BufTy).Contents (Elt F) → (⟨S3300000x8, .f32⟩ : BufTy).Contents (Elt F)),
    nullary main_cst_11 (constant S_ .f32 0x00000000#32),
    unary main_cst_11 main_v61 (broadcastInDim S100000x8 ![] bcast_S_S100000x8 : (⟨S_, .f32⟩ : BufTy).Contents (Elt F) → (⟨S100000x8, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    unary main_arg6 main_v64 (broadcastInDim S1x8 ![1] bcast_S8_S1x8_1 : (⟨S8, .f32⟩ : BufTy).Contents (Elt F) → (⟨S1x8, .f32⟩ : BufTy).Contents (Elt F)),
    unary main_v64 main_v65 (broadcastInDim S100000x8 ![0, 1] bcast_S1x8_S100000x8_0_1 : (⟨S1x8, .f32⟩ : BufTy).Contents (Elt F) → (⟨S100000x8, .f32⟩ : BufTy).Contents (Elt F)),
    binary main_v63 main_v65 main_v66 (addf : (⟨S100000x8, .f32⟩ : BufTy).Contents (Elt F) → (⟨S100000x8, .f32⟩ : BufTy).Contents (Elt F) → (⟨S100000x8, .f32⟩ : BufTy).Contents (Elt F)),
    TRef.nullary (TRef.of (T := ⟨S_, .f32⟩) main_call2_cst) (constant S_ .f32 0xFF800000#32),
    TRef.binary (TRef.of (T := ⟨S100000x8, .f32⟩) main_v66) (TRef.of (T := ⟨S_, .f32⟩) main_call2_cst) (TRef.of (T := ⟨S100000, .f32⟩) main_call2_v0) (fun x v => Host.reduce FloatOps.maximumf x v reducesTo_S100000x8_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x8, .f32⟩) main_call2_v4) (broadcastInDim S100000x8 ![0, 1] bcast_S100000x1_S100000x8_0_1),
    TRef.binary (TRef.of (T := ⟨S100000x8, .f32⟩) main_v66) (TRef.of (T := ⟨S100000x8, .f32⟩) main_call2_v4) (TRef.of (T := ⟨S100000x8, .f32⟩) main_call2_v5) subf,
    TRef.unary (TRef.of (T := ⟨S100000x8, .f32⟩) main_call2_v5) (TRef.of (T := ⟨S100000x8, .f32⟩) main_call2_v6) Host.exp,
    TRef.nullary (TRef.of (T := ⟨S_, .f32⟩) main_call2_cst_1) (constant S_ .f32 0x00000000#32),
    TRef.binary (TRef.of (T := ⟨S100000x8, .f32⟩) main_call2_v6) (TRef.of (T := ⟨S_, .f32⟩) main_call2_cst_1) (TRef.of (T := ⟨S100000, .f32⟩) main_call2_v7) (fun x v => Host.reduceAdd x v reducesTo_S100000x8_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x8, .f32⟩) main_call2_v10) (broadcastInDim S100000x8 ![0, 1] bcast_S100000x1_S100000x8_0_1),
    TRef.binary (TRef.of (T := ⟨S100000x8, .f32⟩) main_call2_v5) (TRef.of (T := ⟨S100000x8, .f32⟩) main_call2_v10) (TRef.of (T := ⟨S100000x8, .f32⟩) main_v67) subf ]

/-- The whole line, in program order. -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)),
    binary main_arg0 main_arg3 main_v32 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_6 (constantI S_ 32 0#32),
    unary main_c_6 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg5 main_v50 ((fun l r => Host.dotGeneral dot_S100000x16_S16x8_S100000x8_1_0_0_1_n_n none l r) : (⟨S100000x16, .f32⟩ : BufTy).Contents (Elt F) → (⟨S16x8, .f32⟩ : BufTy).Contents (Elt F) → (⟨S100000x8, .f32⟩ : BufTy).Contents (Elt F)),
    nullary main_c_9 (constantI S_ 32 0#32),
    unary main_c_9 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    unary main_v31 main_v58 (broadcastInDim S3300000x1 ![0] bcast_S3300000_S3300000x1_0 : (⟨S3300000, .f32⟩ : BufTy).Contents (Elt F) → (⟨S3300000x1, .f32⟩ : BufTy).Contents (Elt F)),
    unary main_v58 main_v59 (broadcastInDim S3300000x8 ![0, 1] bcast_S3300000x1_S3300000x8_0_1 : (⟨S3300000x1, .f32⟩ : BufTy).Contents (Elt F) → (⟨S3300000x8, .f32⟩ : BufTy).Contents (Elt F)),
    binary main_v57 main_v59 main_v60 (mulf : (⟨S3300000x8, .f32⟩ : BufTy).Contents (Elt F) → (⟨S3300000x8, .f32⟩ : BufTy).Contents (Elt F) → (⟨S3300000x8, .f32⟩ : BufTy).Contents (Elt F)),
    nullary main_cst_11 (constant S_ .f32 0x00000000#32),
    unary main_cst_11 main_v61 (broadcastInDim S100000x8 ![] bcast_S_S100000x8 : (⟨S_, .f32⟩ : BufTy).Contents (Elt F) → (⟨S100000x8, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    unary main_arg6 main_v64 (broadcastInDim S1x8 ![1] bcast_S8_S1x8_1 : (⟨S8, .f32⟩ : BufTy).Contents (Elt F) → (⟨S1x8, .f32⟩ : BufTy).Contents (Elt F)),
    unary main_v64 main_v65 (broadcastInDim S100000x8 ![0, 1] bcast_S1x8_S100000x8_0_1 : (⟨S1x8, .f32⟩ : BufTy).Contents (Elt F) → (⟨S100000x8, .f32⟩ : BufTy).Contents (Elt F)),
    binary main_v63 main_v65 main_v66 (addf : (⟨S100000x8, .f32⟩ : BufTy).Contents (Elt F) → (⟨S100000x8, .f32⟩ : BufTy).Contents (Elt F) → (⟨S100000x8, .f32⟩ : BufTy).Contents (Elt F)),
    TRef.nullary (TRef.of (T := ⟨S_, .f32⟩) main_call2_cst) (constant S_ .f32 0xFF800000#32),
    TRef.binary (TRef.of (T := ⟨S100000x8, .f32⟩) main_v66) (TRef.of (T := ⟨S_, .f32⟩) main_call2_cst) (TRef.of (T := ⟨S100000, .f32⟩) main_call2_v0) (fun x v => Host.reduce FloatOps.maximumf x v reducesTo_S100000x8_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x8, .f32⟩) main_call2_v4) (broadcastInDim S100000x8 ![0, 1] bcast_S100000x1_S100000x8_0_1),
    TRef.binary (TRef.of (T := ⟨S100000x8, .f32⟩) main_v66) (TRef.of (T := ⟨S100000x8, .f32⟩) main_call2_v4) (TRef.of (T := ⟨S100000x8, .f32⟩) main_call2_v5) subf,
    TRef.unary (TRef.of (T := ⟨S100000x8, .f32⟩) main_call2_v5) (TRef.of (T := ⟨S100000x8, .f32⟩) main_call2_v6) Host.exp,
    TRef.nullary (TRef.of (T := ⟨S_, .f32⟩) main_call2_cst_1) (constant S_ .f32 0x00000000#32),
    TRef.binary (TRef.of (T := ⟨S100000x8, .f32⟩) main_call2_v6) (TRef.of (T := ⟨S_, .f32⟩) main_call2_cst_1) (TRef.of (T := ⟨S100000, .f32⟩) main_call2_v7) (fun x v => Host.reduceAdd x v reducesTo_S100000x8_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x8, .f32⟩) main_call2_v10) (broadcastInDim S100000x8 ![0, 1] bcast_S100000x1_S100000x8_0_1),
    TRef.binary (TRef.of (T := ⟨S100000x8, .f32⟩) main_call2_v5) (TRef.of (T := ⟨S100000x8, .f32⟩) main_call2_v10) (TRef.of (T := ⟨S100000x8, .f32⟩) main_v67) subf ]

/-- The line is its five pieces in order. -/
theorem ops_cut : (ops : List (HloOp τ sig (Elt F))) = normOps ++ dense1 :: (layer1Ops ++ dense2 :: layer2Ops) := rfl

set_option maxRecDepth 8192 in
set_option maxHeartbeats 4000000 in
/-- The printed program is this line, by unfolding the called functions at their call sites. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 4000000 in
/-- Every weakly fair execution of the reference terminates, nothing faulting, with every buffer at the fold of the
    line's operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.Line

end
-- ==== Proof.RefKept.lean ====
/-
  The reference's arguments end as launched.

  No operation of the reference's line writes an argument buffer, so the fold of the line over the launch contents, read
  at an argument, is the launch contents there.
-/
import proofs.«165263_j14147622273472_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

set_option maxRecDepth 8192 in
set_option maxHeartbeats 4000000 in
theorem kept_arg0 : after (ops (F := F)) (launchContents m c) (Proc.devRef .tc main_arg0) = m ((c.tc : Thread nD τ).loc main_arg0) := by
  after_results_simp <;> rfl
set_option maxRecDepth 8192 in
set_option maxHeartbeats 4000000 in
theorem kept_arg1 : after (ops (F := F)) (launchContents m c) (Proc.devRef .tc main_arg1) = m ((c.tc : Thread nD τ).loc main_arg1) := by
  after_results_simp <;> rfl
set_option maxRecDepth 8192 in
set_option maxHeartbeats 4000000 in
theorem kept_arg2 : after (ops (F := F)) (launchContents m c) (Proc.devRef .tc main_arg2) = m ((c.tc : Thread nD τ).loc main_arg2) := by
  after_results_simp <;> rfl
set_option maxRecDepth 8192 in
set_option maxHeartbeats 4000000 in
theorem kept_arg3 : after (ops (F := F)) (launchContents m c) (Proc.devRef .tc main_arg3) = m ((c.tc : Thread nD τ).loc main_arg3) := by
  after_results_simp <;> rfl
set_option maxRecDepth 8192 in
set_option maxHeartbeats 4000000 in
theorem kept_arg4 : after (ops (F := F)) (launchContents m c) (Proc.devRef .tc main_arg4) = m ((c.tc : Thread nD τ).loc main_arg4) := by
  after_results_simp <;> rfl
set_option maxRecDepth 8192 in
set_option maxHeartbeats 4000000 in
theorem kept_arg5 : after (ops (F := F)) (launchContents m c) (Proc.devRef .tc main_arg5) = m ((c.tc : Thread nD τ).loc main_arg5) := by
  after_results_simp <;> rfl
set_option maxRecDepth 8192 in
set_option maxHeartbeats 4000000 in
theorem kept_arg6 : after (ops (F := F)) (launchContents m c) (Proc.devRef .tc main_arg6) = m ((c.tc : Thread nD τ).loc main_arg6) := by
  after_results_simp <;> rfl

/-- Every weakly fair execution of the reference terminates, nothing faulting, with its arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_arg0).trans (kept_arg0 m c), (h c main_arg1).trans (kept_arg1 m c), (h c main_arg2).trans (kept_arg2 m c), (h c main_arg3).trans (kept_arg3 m c), (h c main_arg4).trans (kept_arg4 m c), (h c main_arg5).trans (kept_arg5 m c), (h c main_arg6).trans (kept_arg6 m c)⟩)
    (run m ρ)

end Cert.ReferenceIdeal.Line

end
-- ==== Proof.LibFoldFinish.lean ====
/-
  Reading a fold of host operations to the end.

  The contents of a buffer after a line of operations is a composition of the operations' functions over the contents
  before the line. The library's one-pass reading of such a fold stops short where an operation's operands sit inside
  the operand list of a concatenation: the results of the operations that produced those operands are left unread
  there. This loop finishes the reading: each operation's result at its own buffer is its function of its operands,
  and at any other buffer it is what was there before (the two references told apart by computation).
-/
import Idealize.ShloMosaic.Lib.StableHlo.Run

namespace Idealize.ShloMosaic.StableHlo

/-- Finishes reading a fold where the one-pass reading stops short (under the operand list of a concatenation):
    each operation's result at its own buffer is its function of its operands, at any other buffer what was there.
    Run it after `after_results_simp`; it does nothing where nothing is left to read. -/
macro "finish_results" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.Stretches.lean ====
/-
  The two programs, stretch by stretch.

  The kernel's host operations and the reference's are the same operations on buffers of the same names; only the two
  dense products are computed differently. For each stretch of host operations: if the two programs enter the
  stretch with equal contents in the buffers the stretch reads, they leave it with equal contents in the buffers it
  writes, and a buffer it does not write keeps what it held. Each side's contents after the stretch is the composition
  of the stretch's operations over the contents before it, and the two compositions are the same term.
-/
import proofs.«165263_j14147622273472_1_alg».proof.Proof.Gen.KernelIdeal.Frame
import proofs.«165263_j14147622273472_1_alg».proof.Proof.RefRun
import proofs.«165263_j14147622273472_1_alg».proof.Proof.LibFoldFinish
import Idealize.ShloMosaic.PureOps.Ideal

set_option maxRecDepth 16384

noncomputable section

namespace Cert.Stretches

open Idealize.ShloMosaic Idealize.ShloMosaic.TcCoe Idealize.ShloMosaic.StableHlo

/-- Buffer contents of the kernel's program and of the reference's, over the extended reals. -/
abbrev KV := Valuation Cert.KernelIdeal.τ Cert.KernelIdeal.sig (Elt Ideal)
abbrev RV := Valuation Cert.ReferenceIdeal.τ Cert.ReferenceIdeal.sig (Elt Ideal)

/-- The kernel's three stretches of host operations, each as one list. -/
abbrev kNorm (vk : KV) : KV :=
  after (Cert.KernelIdeal.Gen.hostOps0_2 (F := Ideal)) (after (Cert.KernelIdeal.Gen.hostOps0_1 (F := Ideal)) (after (Cert.KernelIdeal.Gen.hostOps0 (F := Ideal)) vk))
abbrev kLayer1 (vk : KV) : KV :=
  after (Cert.KernelIdeal.Gen.hostOps1_1 (F := Ideal)) (after (Cert.KernelIdeal.Gen.hostOps1 (F := Ideal)) vk)
abbrev kLayer2 (vk : KV) : KV :=
  after (Cert.KernelIdeal.Gen.hostOps2_1 (F := Ideal)) (after (Cert.KernelIdeal.Gen.hostOps2 (F := Ideal)) vk)

set_option maxHeartbeats 8000000 in
/-- The edge normalization: from equal edge lists and edge weights, equal sources, destinations and edge norms; the
    other arguments are not touched. -/
theorem norm_eq (vk : KV) (vr : RV)
    (hx : vk (Proc.devRef .tc Cert.KernelIdeal.main_arg0) = vr (Proc.devRef .tc Cert.ReferenceIdeal.main_arg0)) (he : vk (Proc.devRef .tc Cert.KernelIdeal.main_arg1) = vr (Proc.devRef .tc Cert.ReferenceIdeal.main_arg1))
    (hw : vk (Proc.devRef .tc Cert.KernelIdeal.main_arg2) = vr (Proc.devRef .tc Cert.ReferenceIdeal.main_arg2)) (hW1 : vk (Proc.devRef .tc Cert.KernelIdeal.main_arg3) = vr (Proc.devRef .tc Cert.ReferenceIdeal.main_arg3))
    (hb1 : vk (Proc.devRef .tc Cert.KernelIdeal.main_arg4) = vr (Proc.devRef .tc Cert.ReferenceIdeal.main_arg4)) (hW2 : vk (Proc.devRef .tc Cert.KernelIdeal.main_arg5) = vr (Proc.devRef .tc Cert.ReferenceIdeal.main_arg5))
    (hb2 : vk (Proc.devRef .tc Cert.KernelIdeal.main_arg6) = vr (Proc.devRef .tc Cert.ReferenceIdeal.main_arg6)) :
    kNorm vk (Proc.devRef .tc Cert.KernelIdeal.main_v3) = after (Cert.ReferenceIdeal.Line.normOps (F := Ideal)) vr (Proc.devRef .tc Cert.ReferenceIdeal.main_v3)
    ∧ kNorm vk (Proc.devRef .tc Cert.KernelIdeal.main_v6) = after (Cert.ReferenceIdeal.Line.normOps (F := Ideal)) vr (Proc.devRef .tc Cert.ReferenceIdeal.main_v6)
    ∧ kNorm vk (Proc.devRef .tc Cert.KernelIdeal.main_v31) = after (Cert.ReferenceIdeal.Line.normOps (F := Ideal)) vr (Proc.devRef .tc Cert.ReferenceIdeal.main_v31)
    ∧ kNorm vk (Proc.devRef .tc Cert.KernelIdeal.main_arg0) = after (Cert.ReferenceIdeal.Line.normOps (F := Ideal)) vr (Proc.devRef .tc Cert.ReferenceIdeal.main_arg0)
    ∧ kNorm vk (Proc.devRef .tc Cert.KernelIdeal.main_arg3) = after (Cert.ReferenceIdeal.Line.normOps (F := Ideal)) vr (Proc.devRef .tc Cert.ReferenceIdeal.main_arg3)
    ∧ kNorm vk (Proc.devRef .tc Cert.KernelIdeal.main_arg4) = after (Cert.ReferenceIdeal.Line.normOps (F := Ideal)) vr (Proc.devRef .tc Cert.ReferenceIdeal.main_arg4)
    ∧ kNorm vk (Proc.devRef .tc Cert.KernelIdeal.main_arg5) = after (Cert.ReferenceIdeal.Line.normOps (F := Ideal)) vr (Proc.devRef .tc Cert.ReferenceIdeal.main_arg5)
    ∧ kNorm vk (Proc.devRef .tc Cert.KernelIdeal.main_arg6) = after (Cert.ReferenceIdeal.Line.normOps (F := Ideal)) vr (Proc.devRef .tc Cert.ReferenceIdeal.main_arg6) := by
  refine ⟨?_, ?_, ?_, ?_, ?_, ?_, ?_, ?_⟩ <;>
    (dsimp only [kNorm, Cert.KernelIdeal.Gen.hostOps0, Cert.KernelIdeal.Gen.hostOps0_1, Cert.KernelIdeal.Gen.hostOps0_2, Cert.ReferenceIdeal.Line.normOps]
     after_results_simp
     finish_results
     repeat (first | rw [hx] | rw [he] | rw [hw] | rw [hW1] | rw [hb1] | rw [hW2] | rw [hb2])
     try rfl)

set_option maxHeartbeats 8000000 in
/-- The first aggregation: from equal sources, destinations, edge norms, transformed features and bias, equal hidden
    activations; the graph arrays and the later arguments are not touched. -/
theorem layer1_eq (vk : KV) (vr : RV)
    (hs : vk (Proc.devRef .tc Cert.KernelIdeal.main_v3) = vr (Proc.devRef .tc Cert.ReferenceIdeal.main_v3)) (hd : vk (Proc.devRef .tc Cert.KernelIdeal.main_v6) = vr (Proc.devRef .tc Cert.ReferenceIdeal.main_v6))
    (hn : vk (Proc.devRef .tc Cert.KernelIdeal.main_v31) = vr (Proc.devRef .tc Cert.ReferenceIdeal.main_v31)) (hh : vk (Proc.devRef .tc Cert.KernelIdeal.main_v32) = vr (Proc.devRef .tc Cert.ReferenceIdeal.main_v32))
    (hb1 : vk (Proc.devRef .tc Cert.KernelIdeal.main_arg4) = vr (Proc.devRef .tc Cert.ReferenceIdeal.main_arg4)) (hW2 : vk (Proc.devRef .tc Cert.KernelIdeal.main_arg5) = vr (Proc.devRef .tc Cert.ReferenceIdeal.main_arg5))
    (hb2 : vk (Proc.devRef .tc Cert.KernelIdeal.main_arg6) = vr (Proc.devRef .tc Cert.ReferenceIdeal.main_arg6)) :
    kLayer1 vk (Proc.devRef .tc Cert.KernelIdeal.main_v49) = after (Cert.ReferenceIdeal.Line.layer1Ops (F := Ideal)) vr (Proc.devRef .tc Cert.ReferenceIdeal.main_v49)
    ∧ kLayer1 vk (Proc.devRef .tc Cert.KernelIdeal.main_v3) = after (Cert.ReferenceIdeal.Line.layer1Ops (F := Ideal)) vr (Proc.devRef .tc Cert.ReferenceIdeal.main_v3)
    ∧ kLayer1 vk (Proc.devRef .tc Cert.KernelIdeal.main_v6) = after (Cert.ReferenceIdeal.Line.layer1Ops (F := Ideal)) vr (Proc.devRef .tc Cert.ReferenceIdeal.main_v6)
    ∧ kLayer1 vk (Proc.devRef .tc Cert.KernelIdeal.main_v31) = after (Cert.ReferenceIdeal.Line.layer1Ops (F := Ideal)) vr (Proc.devRef .tc Cert.ReferenceIdeal.main_v31)
    ∧ kLayer1 vk (Proc.devRef .tc Cert.KernelIdeal.main_arg5) = after (Cert.ReferenceIdeal.Line.layer1Ops (F := Ideal)) vr (Proc.devRef .tc Cert.ReferenceIdeal.main_arg5)
    ∧ kLayer1 vk (Proc.devRef .tc Cert.KernelIdeal.main_arg6) = after (Cert.ReferenceIdeal.Line.layer1Ops (F := Ideal)) vr (Proc.devRef .tc Cert.ReferenceIdeal.main_arg6) := by
  refine ⟨?_, ?_, ?_, ?_, ?_, ?_⟩ <;>
    (dsimp only [kLayer1, Cert.KernelIdeal.Gen.hostOps1, Cert.KernelIdeal.Gen.hostOps1_1, Cert.ReferenceIdeal.Line.layer1Ops]
     after_results_simp
     finish_results
     repeat (first | rw [hs] | rw [hd] | rw [hn] | rw [hh] | rw [hb1] | rw [hW2] | rw [hb2])
     try rfl)

set_option maxHeartbeats 8000000 in
/-- The second aggregation and the log-softmax: from equal sources, destinations, edge norms, transformed activations
    and bias, equal results. -/
theorem layer2_eq (vk : KV) (vr : RV)
    (hs : vk (Proc.devRef .tc Cert.KernelIdeal.main_v3) = vr (Proc.devRef .tc Cert.ReferenceIdeal.main_v3)) (hd : vk (Proc.devRef .tc Cert.KernelIdeal.main_v6) = vr (Proc.devRef .tc Cert.ReferenceIdeal.main_v6))
    (hn : vk (Proc.devRef .tc Cert.KernelIdeal.main_v31) = vr (Proc.devRef .tc Cert.ReferenceIdeal.main_v31)) (hh : vk (Proc.devRef .tc Cert.KernelIdeal.main_v50) = vr (Proc.devRef .tc Cert.ReferenceIdeal.main_v50))
    (hb2 : vk (Proc.devRef .tc Cert.KernelIdeal.main_arg6) = vr (Proc.devRef .tc Cert.ReferenceIdeal.main_arg6)) :
    kLayer2 vk (Proc.devRef .tc Cert.KernelIdeal.main_v67) = after (Cert.ReferenceIdeal.Line.layer2Ops (F := Ideal)) vr (Proc.devRef .tc Cert.ReferenceIdeal.main_v67) := by
  dsimp only [kLayer2, Cert.KernelIdeal.Gen.hostOps2, Cert.KernelIdeal.Gen.hostOps2_1, Cert.ReferenceIdeal.Line.layer2Ops]
  after_results_simp
  finish_results
  repeat (first | rw [hs] | rw [hd] | rw [hn] | rw [hh] | rw [hb2])
  try rfl

end Cert.Stretches

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.LibProduct.lean ====
/-
  The rows-by-columns product as ONE function of two arrays, and the two spellings of it that programs use.

  `prod x w (a, b) = Σ_k x (a, k) · w (k, b)` over the extended reals. For dimension numbers that contract the left
  operand's second axis with the right operand's first and batch nothing, both the matrix unit's product
  accumulated into a zero array and the host's `dot_general` are this function, whatever formats the operands are
  stored in: on the extended reals a format is only a label.
-/
import Idealize.ShloMosaic.PureOps.Ideal.Laws
import Idealize.ShloMosaic.Lib.ValueIdx
import proofs.«165263_j14147622273472_1_alg».proof.Proof.LibDot

noncomputable section

open scoped BigOperators

namespace Idealize.ShloMosaic.RowsByCols

open Idealize.ShloMosaic Idealize.ShloMosaic.ValueIdx

variable {M K N : ℕ}

/-- The product of an `M × K` array and a `K × N` array: entry `(a, b)` is `Σ_k x (a, k) · w (k, b)`. -/
def prod (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (n1 := K) (i 0) k) * w (ix2 (n0 := K) (n1 := N) k (i 1))

/-- The product at explicit coordinates. -/
theorem prod_apply (x : (⟨2, ![M, K]⟩ : Shape).Idx → EReal) (w : (⟨2, ![K, N]⟩ : Shape).Idx → EReal) (a : Fin M) (b : Fin N) :
    prod x w (ix2 a b) = ∑ k : Fin K, x (ix2 a k) * w (ix2 k b) := rfl

/-- The host's `dot_general` with dimension numbers `[1] × [0]` and no batch axes is the product. -/
theorem host_eq {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = []) (prec : Option ContractPrecision)
    (l : FVec Ideal ⟨2, ![M, K]⟩ φ₁) (r : FVec Ideal ⟨2, ![K, N]⟩ φ₂) :
    Host.dotGeneral D prec l r = prod l r := by
  funext j
  obtain ⟨a, b, rfl⟩ : ∃ (a : Fin M) (b : Fin N), j = ix2 a b := ⟨j 0, j 1, eq_ix2 j⟩
  show FloatOps.dotGeneral D prec .single l r (ix2 a b) = _
  rw [Ideal.dotGeneral_apply, PlainDot.sum_eq D h1 h2 h3 h4 h5 h6]
  rfl

/-- The matrix unit's product with the same dimension numbers, accumulated into the zero array, is the product. -/
theorem mxu_eq {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = []) (prec : Option ContractPrecision)
    (l : FVec Ideal ⟨2, ![M, K]⟩ φ₁) (r : FVec Ideal ⟨2, ![K, N]⟩ φ₂) :
    matmul D prec l r (constant (F := Ideal) ⟨2, ![M, N]⟩ .f32 0x00000000#32) = prod l r := by
  funext j
  obtain ⟨a, b, rfl⟩ : ∃ (a : Fin M) (b : Fin N), j = ix2 a b := ⟨j 0, j 1, eq_ix2 j⟩
  show FloatOps.matmul D prec l r (constant (F := Ideal) ⟨2, ![M, N]⟩ .f32 0x00000000#32) (ix2 a b) = _
  rw [Ideal.matmul_constant_zero_apply, PlainDot.sum_eq D h1 h2 h3 h4 h5 h6]
  rfl

end Idealize.ShloMosaic.RowsByCols

end
-- ==== Proof.Dense1.lean ====
/-
  The first pipelined product, as one array.

  The region multiplies a 100000 × 512 array by a 512 × 16 matrix in fifty row blocks of 2000 rows: point t
  loads rows 2000·t … 2000·t + 1999 of the left array and the whole matrix, and stores their product (formed on the matrix
  unit from the operands narrowed to bf16, which on the extended reals changes nothing, accumulated into zeros) as rows
  2000·t … 2000·t + 1999 of the result. Entry (p, q) of a block's product is Σ_k x(2000·t + p, k) · w(k, q), which is entry
  (2000·t + p, q) of the product of the whole arrays; the fifty blocks tile the 100000 rows, so the result array ends
  holding the whole product.
-/
import proofs.«165263_j14147622273472_1_alg».proof.Proof.Gen.KernelIdeal.Frame
import proofs.«165263_j14147622273472_1_alg».proof.Proof.LibProduct
import Idealize.ShloMosaic.Lib.Pipeline.Value
import Idealize.ShloMosaic.Lib.ValueIdx

set_option maxRecDepth 16384

noncomputable section

open scoped BigOperators

namespace Cert.KernelIdeal.Dense1

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.RowsByCols (prod prod_apply mxu_eq)

-- the buffer contents the region is entered from
variable (V : (c : Dev nD) → (b : Ref sig .tc) → Buf (Elt Ideal) ((c : Thread nD τ).loc b))

theorem zero_offsets : (![0, 0] : Fin 2 → Nat) = fun _ => 0 := funext fun a => by fin_cases a <;> rfl

/-- An entry of the product of a block of rows with a matrix is the entry of the whole product in the row the block's
    row comes from: both are the same sum over the contracted index. -/
theorem prod_of_rows {M K N B : ℕ} (x : (⟨2, ![M, K]⟩ : Shape).Idx → EReal) (w : (⟨2, ![K, N]⟩ : Shape).Idx → EReal)
    (xb : (⟨2, ![B, K]⟩ : Shape).Idx → EReal) (wb : (⟨2, ![K, N]⟩ : Shape).Idx → EReal)
    (j : (⟨2, ![B, N]⟩ : Shape).Idx) (i : (⟨2, ![M, N]⟩ : Shape).Idx)
    (hx : ∀ k : Fin K, xb (ix2 (j 0) k) = x (ix2 (i 0) k)) (hw : ∀ k : Fin K, wb (ix2 k (j 1)) = w (ix2 k (i 1))) :
    prod xb wb j = prod x w i := by
  unfold prod
  exact Finset.sum_congr rfl fun k _ => by rw [hx k, hw k]

/-- The body's value: the product of the two loaded blocks. -/
theorem payload_eq (x0 : Vec Ideal S2000x512 .f32) (x1 : Vec Ideal S512x16 .f32) :
    k0_pay1 (F := Ideal) x0 x1 = prod (M := 2000) (K := 512) (N := 16) x0 x1 := by
  unfold k0_pay1
  exact mxu_eq dot_S2000x512_S512x16_S2000x16_1_0_0_1_n_n rfl rfl rfl rfl rfl rfl none _ _

/-- Where the blocks sit, decided over the grid: the left operand's and the result's row blocks move together with the
    point, the matrix's one block and all column blocks stay at zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the whole arrays. -/
theorem flushed_eq (c : Dev nD) (t : Fin cfg0.N) :
    (dat0 (F := Ideal) V c).flushed 2 t
      = ((cfg0.win 2).blk t).view.read (Elt Ideal)
          (prod (M := 100000) (K := 512) (N := 16) (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x16) zero_offsets]
  rw [payload_eq]
  obtain ⟨e0, e1, e2, e3, e4, e5⟩ := block_indices t
  funext j
  show prod (M := 2000) (K := 512) (N := 16) (iblk0 V c 0 t) (iblk0 V c 1 t) j
      = prod (M := 100000) (K := 512) (N := 16) (V c main_arg0) (V c main_arg3) (((cfg0.win 2).blk t).view.emb j)
  refine prod_of_rows (M := 100000) (K := 512) (N := 16) (B := 2000) (V c main_arg0) (V c main_arg3) (iblk0 V c 0 t) (iblk0 V c 1 t) j
    (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · show V c main_arg3 (((cfg0.win 1).blk t).view.emb (ix2 k (j 1))) = V c main_arg3 (ix2 k ((((cfg0.win 2).blk t).view.emb j) 1))
    refine congrArg (V c main_arg3) (funext fun a => Fin.ext ?_)
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega

/-- An index of the result array is in point t's block iff its row is among the block's rows (and its column among
    all the columns). -/
theorem mem_block (t : Fin cfg0.N) (i : S100000x16.Idx) :
    i ∈ ((cfg0.win 2).blk t).view.set
      ↔ ∀ a : Fin 2, win0_2.index t a * S2000x16.size a ≤ (i a).val ∧ (i a).val < win0_2.index t a * S2000x16.size a + S2000x16.size a := by
  show i ∈ ((View.whole main_v32).slice (win0_2.rect t)).set ↔ _
  rw [View.set_slice_whole, Rect.mem_set_unit]
  exact Iff.rfl

/-- Row r is in the block of point r / 2000: the blocks tile the array. -/
theorem covered (i : S100000x16.Idx) :
    ∃ t : Fin cfg0.N, (cfg0.win 2).flush t = true ∧ i ∈ ((cfg0.win 2).blk t).view.set := by
  have h0 : (i 0).val < 100000 := (i 0).isLt
  have h1 : (i 1).val < 16 := (i 1).isLt
  have hN : grid0.N = 50 := N_0
  let t : Fin cfg0.N := ⟨(i 0).val / 2000, by show (i 0).val / 2000 < grid0.N; rw [hN]; omega⟩
  obtain ⟨e0, e1, e2, e3, e4, e5⟩ := block_indices t
  have ht : t.val = (i 0).val / 2000 := rfl
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- After the region the result array holds the product of the two input arrays as the region found them. -/
theorem array_eq (c : Dev nD) :
    (dat0 (F := Ideal) V c).arrAt 2 cfg0.N
      = prod (M := 100000) (K := 512) (N := 16) (V c main_arg0) (V c main_arg3) :=
  (dat0 (F := Ideal) V c).arrAt_eq_of_cover 2 _ (fun t _ => flushed_eq V c t) covered

end Cert.KernelIdeal.Dense1

end
-- ==== Proof.Dense2.lean ====
/-
  The second pipelined product, as one array.

  The region multiplies a 100000 × 16 array by a 16 × 8 matrix in fifty row blocks of 2000 rows: point t
  loads rows 2000·t … 2000·t + 1999 of the left array and the whole matrix, and stores their product (formed on the matrix
  unit from the operands narrowed to bf16, which on the extended reals changes nothing, accumulated into zeros) as rows
  2000·t … 2000·t + 1999 of the result. Entry (p, q) of a block's product is Σ_k x(2000·t + p, k) · w(k, q), which is entry
  (2000·t + p, q) of the product of the whole arrays; the fifty blocks tile the 100000 rows, so the result array ends
  holding the whole product.
-/
import proofs.«165263_j14147622273472_1_alg».proof.Proof.Gen.KernelIdeal.Frame
import proofs.«165263_j14147622273472_1_alg».proof.Proof.LibProduct
import Idealize.ShloMosaic.Lib.Pipeline.Value
import Idealize.ShloMosaic.Lib.ValueIdx

set_option maxRecDepth 16384

noncomputable section

open scoped BigOperators

namespace Cert.KernelIdeal.Dense2

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.RowsByCols (prod prod_apply mxu_eq)

-- the buffer contents the region is entered from
variable (V : (c : Dev nD) → (b : Ref sig .tc) → Buf (Elt Ideal) ((c : Thread nD τ).loc b))

theorem zero_offsets : (![0, 0] : Fin 2 → Nat) = fun _ => 0 := funext fun a => by fin_cases a <;> rfl

/-- An entry of the product of a block of rows with a matrix is the entry of the whole product in the row the block's
    row comes from: both are the same sum over the contracted index. -/
theorem prod_of_rows {M K N B : ℕ} (x : (⟨2, ![M, K]⟩ : Shape).Idx → EReal) (w : (⟨2, ![K, N]⟩ : Shape).Idx → EReal)
    (xb : (⟨2, ![B, K]⟩ : Shape).Idx → EReal) (wb : (⟨2, ![K, N]⟩ : Shape).Idx → EReal)
    (j : (⟨2, ![B, N]⟩ : Shape).Idx) (i : (⟨2, ![M, N]⟩ : Shape).Idx)
    (hx : ∀ k : Fin K, xb (ix2 (j 0) k) = x (ix2 (i 0) k)) (hw : ∀ k : Fin K, wb (ix2 k (j 1)) = w (ix2 k (i 1))) :
    prod xb wb j = prod x w i := by
  unfold prod
  exact Finset.sum_congr rfl fun k _ => by rw [hx k, hw k]

/-- The body's value: the product of the two loaded blocks. -/
theorem payload_eq (x0 : Vec Ideal S2000x16 .f32) (x1 : Vec Ideal S16x8 .f32) :
    k1_pay1 (F := Ideal) x0 x1 = prod (M := 2000) (K := 16) (N := 8) x0 x1 := by
  unfold k1_pay1
  rw [shapeCast_self]
  exact mxu_eq dot_S2000x16_S16x8_S2000x8_1_0_0_1_n_n rfl rfl rfl rfl rfl rfl none _ _

/-- Where the blocks sit, decided over the grid: the left operand's and the result's row blocks move together with the
    point, the matrix's one block and all column blocks stay at zero. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the whole arrays. -/
theorem flushed_eq (c : Dev nD) (t : Fin cfg1.N) :
    (dat1 (F := Ideal) V c).flushed 2 t
      = ((cfg1.win 2).blk t).view.read (Elt Ideal)
          (prod (M := 100000) (K := 16) (N := 8) (V c main_v49) (V c main_arg5)) := by
  show (cfg1.win 2).cut (grid1.coords t) ((dat1 V c).after 2 t) = _
  rw [after1_2]
  unfold out1_2
  rw [View.canon_unit_zero zero_offsets]
  simp only [View.ld_unit_zero (S := S2000x16) zero_offsets, View.ld_unit_zero (S := S16x8) zero_offsets]
  rw [payload_eq]
  obtain ⟨e0, e1, e2, e3, e4, e5⟩ := block_indices t
  funext j
  show prod (M := 2000) (K := 16) (N := 8) (iblk1 V c 0 t) (iblk1 V c 1 t) j
      = prod (M := 100000) (K := 16) (N := 8) (V c main_v49) (V c main_arg5) (((cfg1.win 2).blk t).view.emb j)
  refine prod_of_rows (M := 100000) (K := 16) (N := 8) (B := 2000) (V c main_v49) (V c main_arg5) (iblk1 V c 0 t) (iblk1 V c 1 t) j
    (((cfg1.win 2).blk t).view.emb j) (fun k => ?_) (fun k => ?_)
  · show V c main_v49 (((cfg1.win 0).blk t).view.emb (ix2 (j 0) k)) = V c main_v49 (ix2 ((((cfg1.win 2).blk t).view.emb j) 0) k)
    refine congrArg (V c main_v49) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 16 + 1 * k.val = k.val; omega
  · show V c main_arg5 (((cfg1.win 1).blk t).view.emb (ix2 k (j 1))) = V c main_arg5 (ix2 k ((((cfg1.win 2).blk t).view.emb j) 1))
    refine congrArg (V c main_arg5) (funext fun a => Fin.ext ?_)
    match a with
    | ⟨0, _⟩ => show win1_1.index t (0 : Fin 2) * 16 + 1 * k.val = k.val; omega
    | ⟨1, _⟩ => show win1_1.index t (1 : Fin 2) * 8 + 1 * (j 1).val = win1_2.index t (1 : Fin 2) * 8 + 1 * (j 1).val; omega

/-- An index of the result array is in point t's block iff its row is among the block's rows (and its column among
    all the columns). -/
theorem mem_block (t : Fin cfg1.N) (i : S100000x8.Idx) :
    i ∈ ((cfg1.win 2).blk t).view.set
      ↔ ∀ a : Fin 2, win1_2.index t a * S2000x8.size a ≤ (i a).val ∧ (i a).val < win1_2.index t a * S2000x8.size a + S2000x8.size a := by
  show i ∈ ((View.whole main_v50).slice (win1_2.rect t)).set ↔ _
  rw [View.set_slice_whole, Rect.mem_set_unit]
  exact Iff.rfl

/-- Row r is in the block of point r / 2000: the blocks tile the array. -/
theorem covered (i : S100000x8.Idx) :
    ∃ t : Fin cfg1.N, (cfg1.win 2).flush t = true ∧ i ∈ ((cfg1.win 2).blk t).view.set := by
  have h0 : (i 0).val < 100000 := (i 0).isLt
  have h1 : (i 1).val < 8 := (i 1).isLt
  have hN : grid1.N = 50 := N_1
  let t : Fin cfg1.N := ⟨(i 0).val / 2000, by show (i 0).val / 2000 < grid1.N; rw [hN]; omega⟩
  obtain ⟨e0, e1, e2, e3, e4, e5⟩ := block_indices t
  have ht : t.val = (i 0).val / 2000 := rfl
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 8 ≤ (i 1).val ∧ (i 1).val < win1_2.index t (1 : Fin 2) * 8 + 8; omega

/-- After the region the result array holds the product of the two input arrays as the region found them. -/
theorem array_eq (c : Dev nD) :
    (dat1 (F := Ideal) V c).arrAt 2 cfg1.N
      = prod (M := 100000) (K := 16) (N := 8) (V c main_v49) (V c main_arg5) :=
  (dat1 (F := Ideal) V c).arrAt_eq_of_cover 2 _ (fun t _ => flushed_eq V c t) covered

end Cert.KernelIdeal.Dense2

end
-- ==== Proof.Chain.lean ====
/-
  The kernel's result is the reference's.

  Both programs compute, from the same arguments, the edge normalization, a dense product, the first aggregation, a
  second dense product and the second aggregation with its log-softmax. The host stretches are the same operations
  (module Stretches). The kernel's two pipelined products each leave the rows-by-columns product of the arrays the
  region found (modules Dense1 and Dense2), and the reference's dot_general with the same dimension numbers is that
  product too: on the extended reals both are Σ_k x(a, k) · w(k, b), the matrix unit's narrowing of its operands to
  bf16 being the identity there. So the contents of the live buffers agree at every boundary, and at the end the two
  result buffers hold the same array.
-/
import proofs.«165263_j14147622273472_1_alg».proof.Proof.Stretches
import proofs.«165263_j14147622273472_1_alg».proof.Proof.Dense1
import proofs.«165263_j14147622273472_1_alg».proof.Proof.Dense2
import proofs.«165263_j14147622273472_1_alg».proof.Proof.LibProduct

set_option maxRecDepth 16384

noncomputable section

namespace Cert.Stretches

open Idealize.ShloMosaic Idealize.ShloMosaic.TcCoe Idealize.ShloMosaic.StableHlo
open Idealize.ShloMosaic.RowsByCols (prod host_eq)

/-! ## The reference's line, boundary by boundary -/

/-- The reference's buffer contents after the normalization, after the first product, after the first aggregation,
    after the second product, and at the end. -/
abbrev rNorm (vr : RV) : RV := after (Cert.ReferenceIdeal.Line.normOps (F := Ideal)) vr
abbrev rDense1 (vr : RV) : RV := (Cert.ReferenceIdeal.Line.dense1 (F := Ideal)).result (rNorm vr)
abbrev rLayer1 (vr : RV) : RV := after (Cert.ReferenceIdeal.Line.layer1Ops (F := Ideal)) (rDense1 vr)
abbrev rDense2 (vr : RV) : RV := (Cert.ReferenceIdeal.Line.dense2 (F := Ideal)).result (rLayer1 vr)
abbrev rLayer2 (vr : RV) : RV := after (Cert.ReferenceIdeal.Line.layer2Ops (F := Ideal)) (rDense2 vr)

/-- The fold of the whole line is the fold of its pieces in order. -/
theorem ref_fold (vr : RV) : after (Cert.ReferenceIdeal.Line.ops (F := Ideal)) vr = rLayer2 vr := by
  rw [Cert.ReferenceIdeal.Line.ops_cut, after_append]
  show after (Cert.ReferenceIdeal.Line.layer1Ops ++ Cert.ReferenceIdeal.Line.dense2 :: Cert.ReferenceIdeal.Line.layer2Ops) (rDense1 vr) = _
  rw [after_append]
  rfl

/-- The reference's first product is the rows-by-columns product of the features and the first weight matrix. -/
theorem ref_dense1 (vr : RV) :
    (Cert.ReferenceIdeal.Line.dense1 (F := Ideal)).result vr (Proc.devRef .tc Cert.ReferenceIdeal.main_v32)
      = prod (M := 100000) (K := 512) (N := 16) (vr (Proc.devRef .tc Cert.ReferenceIdeal.main_arg0)) (vr (Proc.devRef .tc Cert.ReferenceIdeal.main_arg3)) := by
  rw [binary_result]
  exact host_eq Cert.ReferenceIdeal.dot_S100000x512_S512x16_S100000x16_1_0_0_1_n_n rfl rfl rfl rfl rfl rfl none _ _

/-- It writes nothing else. -/
theorem ref_dense1_keeps (vr : RV) {r : Ref Cert.ReferenceIdeal.sig .tc} (h : r ≠ Cert.ReferenceIdeal.main_v32) :
    (Cert.ReferenceIdeal.Line.dense1 (F := Ideal)).result vr (Proc.devRef .tc r) = vr (Proc.devRef .tc r) :=
  binary_result_ne _ _ _ _ _ _ _ vr h

/-- The reference's second product is the rows-by-columns product of the hidden activations and the second weight
    matrix. -/
theorem ref_dense2 (vr : RV) :
    (Cert.ReferenceIdeal.Line.dense2 (F := Ideal)).result vr (Proc.devRef .tc Cert.ReferenceIdeal.main_v50)
      = prod (M := 100000) (K := 16) (N := 8) (vr (Proc.devRef .tc Cert.ReferenceIdeal.main_v49)) (vr (Proc.devRef .tc Cert.ReferenceIdeal.main_arg5)) := by
  rw [binary_result]
  exact host_eq Cert.ReferenceIdeal.dot_S100000x16_S16x8_S100000x8_1_0_0_1_n_n rfl rfl rfl rfl rfl rfl none _ _

/-- It writes nothing else. -/
theorem ref_dense2_keeps (vr : RV) {r : Ref Cert.ReferenceIdeal.sig .tc} (h : r ≠ Cert.ReferenceIdeal.main_v50) :
    (Cert.ReferenceIdeal.Line.dense2 (F := Ideal)).result vr (Proc.devRef .tc r) = vr (Proc.devRef .tc r) :=
  binary_result_ne _ _ _ _ _ _ _ vr h

/-! ## The kernel's two regions -/

section Kernel

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- After the first region the product's buffer holds the product of the features and the first weight matrix as the
    region found them. -/
theorem k_dense1 :
    Cert.KernelIdeal.Gen.W4 m ρ c (Proc.devRef .tc Cert.KernelIdeal.main_v32)
      = prod (M := 100000) (K := 512) (N := 16) (Cert.KernelIdeal.Gen.W3 m ρ c (Proc.devRef .tc Cert.KernelIdeal.main_arg0)) (Cert.KernelIdeal.Gen.W3 m ρ c (Proc.devRef .tc Cert.KernelIdeal.main_arg3)) :=
  (Cert.KernelIdeal.Gen.W4_arr m ρ c 2).trans (Cert.KernelIdeal.Dense1.array_eq (Cert.KernelIdeal.Gen.V3 m ρ) c)

/-- After the second region the product's buffer holds the product of the hidden activations and the second weight
    matrix as the region found them. -/
theorem k_dense2 :
    Cert.KernelIdeal.Gen.W7 m ρ c (Proc.devRef .tc Cert.KernelIdeal.main_v50)
      = prod (M := 100000) (K := 16) (N := 8) (Cert.KernelIdeal.Gen.W6 m ρ c (Proc.devRef .tc Cert.KernelIdeal.main_v49)) (Cert.KernelIdeal.Gen.W6 m ρ c (Proc.devRef .tc Cert.KernelIdeal.main_arg5)) :=
  (Cert.KernelIdeal.Gen.W7_arr m ρ c 2).trans (Cert.KernelIdeal.Dense2.array_eq (Cert.KernelIdeal.Gen.V6 m ρ) c)

end Kernel

/-! ## The chain -/

/-- From launch memories that agree on the seven arguments, the kernel's last boundary holds at the result buffer what
    the reference's line leaves at its result buffer. -/
theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.KernelIdeal.Gen.W9 m ρ c (Proc.devRef .tc Cert.KernelIdeal.main_v67)
      = after (Cert.ReferenceIdeal.Line.ops (F := Ideal)) (launchContents m' c) (Proc.devRef .tc Cert.ReferenceIdeal.main_v67) := by
  rw [ref_fold]
  -- at launch
  have a0 : Cert.KernelIdeal.Gen.W0 m ρ c (Proc.devRef .tc Cert.KernelIdeal.main_arg0) = launchContents m' c (Proc.devRef .tc Cert.ReferenceIdeal.main_arg0) := h0.symm
  have a1 : Cert.KernelIdeal.Gen.W0 m ρ c (Proc.devRef .tc Cert.KernelIdeal.main_arg1) = launchContents m' c (Proc.devRef .tc Cert.ReferenceIdeal.main_arg1) := h1.symm
  have a2 : Cert.KernelIdeal.Gen.W0 m ρ c (Proc.devRef .tc Cert.KernelIdeal.main_arg2) = launchContents m' c (Proc.devRef .tc Cert.ReferenceIdeal.main_arg2) := h2.symm
  have a3 : Cert.KernelIdeal.Gen.W0 m ρ c (Proc.devRef .tc Cert.KernelIdeal.main_arg3) = launchContents m' c (Proc.devRef .tc Cert.ReferenceIdeal.main_arg3) := h3.symm
  have a4 : Cert.KernelIdeal.Gen.W0 m ρ c (Proc.devRef .tc Cert.KernelIdeal.main_arg4) = launchContents m' c (Proc.devRef .tc Cert.ReferenceIdeal.main_arg4) := h4.symm
  have a5 : Cert.KernelIdeal.Gen.W0 m ρ c (Proc.devRef .tc Cert.KernelIdeal.main_arg5) = launchContents m' c (Proc.devRef .tc Cert.ReferenceIdeal.main_arg5) := h5.symm
  have a6 : Cert.KernelIdeal.Gen.W0 m ρ c (Proc.devRef .tc Cert.KernelIdeal.main_arg6) = launchContents m' c (Proc.devRef .tc Cert.ReferenceIdeal.main_arg6) := h6.symm
  -- after the normalization
  obtain ⟨n3, n6, n31, na0, na3, na4, na5, na6⟩ := norm_eq (Cert.KernelIdeal.Gen.W0 m ρ c) (launchContents m' c) a0 a1 a2 a3 a4 a5 a6
  have b3 : Cert.KernelIdeal.Gen.W3 m ρ c (Proc.devRef .tc Cert.KernelIdeal.main_v3) = rNorm (launchContents m' c) (Proc.devRef .tc Cert.ReferenceIdeal.main_v3) := n3
  have b6 : Cert.KernelIdeal.Gen.W3 m ρ c (Proc.devRef .tc Cert.KernelIdeal.main_v6) = rNorm (launchContents m' c) (Proc.devRef .tc Cert.ReferenceIdeal.main_v6) := n6
  have b31 : Cert.KernelIdeal.Gen.W3 m ρ c (Proc.devRef .tc Cert.KernelIdeal.main_v31) = rNorm (launchContents m' c) (Proc.devRef .tc Cert.ReferenceIdeal.main_v31) := n31
  have ba0 : Cert.KernelIdeal.Gen.W3 m ρ c (Proc.devRef .tc Cert.KernelIdeal.main_arg0) = rNorm (launchContents m' c) (Proc.devRef .tc Cert.ReferenceIdeal.main_arg0) := na0
  have ba3 : Cert.KernelIdeal.Gen.W3 m ρ c (Proc.devRef .tc Cert.KernelIdeal.main_arg3) = rNorm (launchContents m' c) (Proc.devRef .tc Cert.ReferenceIdeal.main_arg3) := na3
  have ba4 : Cert.KernelIdeal.Gen.W3 m ρ c (Proc.devRef .tc Cert.KernelIdeal.main_arg4) = rNorm (launchContents m' c) (Proc.devRef .tc Cert.ReferenceIdeal.main_arg4) := na4
  have ba5 : Cert.KernelIdeal.Gen.W3 m ρ c (Proc.devRef .tc Cert.KernelIdeal.main_arg5) = rNorm (launchContents m' c) (Proc.devRef .tc Cert.ReferenceIdeal.main_arg5) := na5
  have ba6 : Cert.KernelIdeal.Gen.W3 m ρ c (Proc.devRef .tc Cert.KernelIdeal.main_arg6) = rNorm (launchContents m' c) (Proc.devRef .tc Cert.ReferenceIdeal.main_arg6) := na6
  -- after the first product
  have c32 : Cert.KernelIdeal.Gen.W4 m ρ c (Proc.devRef .tc Cert.KernelIdeal.main_v32) = rDense1 (launchContents m' c) (Proc.devRef .tc Cert.ReferenceIdeal.main_v32) := by
    rw [k_dense1, ba0, ba3]; exact (ref_dense1 _).symm
  have c3 : Cert.KernelIdeal.Gen.W4 m ρ c (Proc.devRef .tc Cert.KernelIdeal.main_v3) = rDense1 (launchContents m' c) (Proc.devRef .tc Cert.ReferenceIdeal.main_v3) :=
    (Cert.KernelIdeal.Gen.W4_of_ne m ρ c Cert.KernelIdeal.main_v3 (by decide)).trans (b3.trans (ref_dense1_keeps (rNorm (launchContents m' c)) (r := Cert.ReferenceIdeal.main_v3) (by decide)).symm)
  have c6 : Cert.KernelIdeal.Gen.W4 m ρ c (Proc.devRef .tc Cert.KernelIdeal.main_v6) = rDense1 (launchContents m' c) (Proc.devRef .tc Cert.ReferenceIdeal.main_v6) :=
    (Cert.KernelIdeal.Gen.W4_of_ne m ρ c Cert.KernelIdeal.main_v6 (by decide)).trans (b6.trans (ref_dense1_keeps (rNorm (launchContents m' c)) (r := Cert.ReferenceIdeal.main_v6) (by decide)).symm)
  have c31 : Cert.KernelIdeal.Gen.W4 m ρ c (Proc.devRef .tc Cert.KernelIdeal.main_v31) = rDense1 (launchContents m' c) (Proc.devRef .tc Cert.ReferenceIdeal.main_v31) :=
    (Cert.KernelIdeal.Gen.W4_of_ne m ρ c Cert.KernelIdeal.main_v31 (by decide)).trans (b31.trans (ref_dense1_keeps (rNorm (launchContents m' c)) (r := Cert.ReferenceIdeal.main_v31) (by decide)).symm)
  have ca4 : Cert.KernelIdeal.Gen.W4 m ρ c (Proc.devRef .tc Cert.KernelIdeal.main_arg4) = rDense1 (launchContents m' c) (Proc.devRef .tc Cert.ReferenceIdeal.main_arg4) :=
    (Cert.KernelIdeal.Gen.W4_of_ne m ρ c Cert.KernelIdeal.main_arg4 (by decide)).trans (ba4.trans (ref_dense1_keeps (rNorm (launchContents m' c)) (r := Cert.ReferenceIdeal.main_arg4) (by decide)).symm)
  have ca5 : Cert.KernelIdeal.Gen.W4 m ρ c (Proc.devRef .tc Cert.KernelIdeal.main_arg5) = rDense1 (launchContents m' c) (Proc.devRef .tc Cert.ReferenceIdeal.main_arg5) :=
    (Cert.KernelIdeal.Gen.W4_of_ne m ρ c Cert.KernelIdeal.main_arg5 (by decide)).trans (ba5.trans (ref_dense1_keeps (rNorm (launchContents m' c)) (r := Cert.ReferenceIdeal.main_arg5) (by decide)).symm)
  have ca6 : Cert.KernelIdeal.Gen.W4 m ρ c (Proc.devRef .tc Cert.KernelIdeal.main_arg6) = rDense1 (launchContents m' c) (Proc.devRef .tc Cert.ReferenceIdeal.main_arg6) :=
    (Cert.KernelIdeal.Gen.W4_of_ne m ρ c Cert.KernelIdeal.main_arg6 (by decide)).trans (ba6.trans (ref_dense1_keeps (rNorm (launchContents m' c)) (r := Cert.ReferenceIdeal.main_arg6) (by decide)).symm)
  -- after the first aggregation
  obtain ⟨l49, l3, l6, l31, la5, la6⟩ := layer1_eq (Cert.KernelIdeal.Gen.W4 m ρ c) (rDense1 (launchContents m' c)) c3 c6 c31 c32 ca4 ca5 ca6
  have d49 : Cert.KernelIdeal.Gen.W6 m ρ c (Proc.devRef .tc Cert.KernelIdeal.main_v49) = rLayer1 (launchContents m' c) (Proc.devRef .tc Cert.ReferenceIdeal.main_v49) := l49
  have d3 : Cert.KernelIdeal.Gen.W6 m ρ c (Proc.devRef .tc Cert.KernelIdeal.main_v3) = rLayer1 (launchContents m' c) (Proc.devRef .tc Cert.ReferenceIdeal.main_v3) := l3
  have d6 : Cert.KernelIdeal.Gen.W6 m ρ c (Proc.devRef .tc Cert.KernelIdeal.main_v6) = rLayer1 (launchContents m' c) (Proc.devRef .tc Cert.ReferenceIdeal.main_v6) := l6
  have d31 : Cert.KernelIdeal.Gen.W6 m ρ c (Proc.devRef .tc Cert.KernelIdeal.main_v31) = rLayer1 (launchContents m' c) (Proc.devRef .tc Cert.ReferenceIdeal.main_v31) := l31
  have da5 : Cert.KernelIdeal.Gen.W6 m ρ c (Proc.devRef .tc Cert.KernelIdeal.main_arg5) = rLayer1 (launchContents m' c) (Proc.devRef .tc Cert.ReferenceIdeal.main_arg5) := la5
  have da6 : Cert.KernelIdeal.Gen.W6 m ρ c (Proc.devRef .tc Cert.KernelIdeal.main_arg6) = rLayer1 (launchContents m' c) (Proc.devRef .tc Cert.ReferenceIdeal.main_arg6) := la6
  -- after the second product
  have e50 : Cert.KernelIdeal.Gen.W7 m ρ c (Proc.devRef .tc Cert.KernelIdeal.main_v50) = rDense2 (launchContents m' c) (Proc.devRef .tc Cert.ReferenceIdeal.main_v50) := by
    rw [k_dense2, d49, da5]; exact (ref_dense2 _).symm
  have e3 : Cert.KernelIdeal.Gen.W7 m ρ c (Proc.devRef .tc Cert.KernelIdeal.main_v3) = rDense2 (launchContents m' c) (Proc.devRef .tc Cert.ReferenceIdeal.main_v3) :=
    (Cert.KernelIdeal.Gen.W7_of_ne m ρ c Cert.KernelIdeal.main_v3 (by decide)).trans (d3.trans (ref_dense2_keeps (rLayer1 (launchContents m' c)) (r := Cert.ReferenceIdeal.main_v3) (by decide)).symm)
  have e6 : Cert.KernelIdeal.Gen.W7 m ρ c (Proc.devRef .tc Cert.KernelIdeal.main_v6) = rDense2 (launchContents m' c) (Proc.devRef .tc Cert.ReferenceIdeal.main_v6) :=
    (Cert.KernelIdeal.Gen.W7_of_ne m ρ c Cert.KernelIdeal.main_v6 (by decide)).trans (d6.trans (ref_dense2_keeps (rLayer1 (launchContents m' c)) (r := Cert.ReferenceIdeal.main_v6) (by decide)).symm)
  have e31 : Cert.KernelIdeal.Gen.W7 m ρ c (Proc.devRef .tc Cert.KernelIdeal.main_v31) = rDense2 (launchContents m' c) (Proc.devRef .tc Cert.ReferenceIdeal.main_v31) :=
    (Cert.KernelIdeal.Gen.W7_of_ne m ρ c Cert.KernelIdeal.main_v31 (by decide)).trans (d31.trans (ref_dense2_keeps (rLayer1 (launchContents m' c)) (r := Cert.ReferenceIdeal.main_v31) (by decide)).symm)
  have ea6 : Cert.KernelIdeal.Gen.W7 m ρ c (Proc.devRef .tc Cert.KernelIdeal.main_arg6) = rDense2 (launchContents m' c) (Proc.devRef .tc Cert.ReferenceIdeal.main_arg6) :=
    (Cert.KernelIdeal.Gen.W7_of_ne m ρ c Cert.KernelIdeal.main_arg6 (by decide)).trans (da6.trans (ref_dense2_keeps (rLayer1 (launchContents m' c)) (r := Cert.ReferenceIdeal.main_arg6) (by decide)).symm)
  -- at the end
  exact layer2_eq (Cert.KernelIdeal.Gen.W7 m ρ c) (rDense2 (launchContents m' c)) e3 e6 e31 e50 ea6

end Cert.Stretches

end
-- ==== Proof.lean ====
/-
  A two-layer graph convolution, its dense per-node products as pipelined kernels, against the same network in plain
  array operations.

  Both programs take node features x, an edge list with edge weights, and two layers' weights and biases. They append a
  self-loop to every node, form the weighted in-degrees d, and give every edge the norm d^(-1/2)[src] · w · d^(-1/2)[dst]
  (zero where a degree is not positive). A layer multiplies the node rows by its weight matrix, gathers the transformed
  rows at the edges' sources, scales them by the edge norms, adds them up at the edges' destinations and adds the bias;
  the first layer is followed by a clip at zero, the second by a row-wise log-softmax.

  The two programs differ only in how the two dense products are computed: the reference by dot_general, the kernel in
  fifty row blocks on the matrix unit with operands narrowed to bf16. On the extended reals the narrowing is the
  identity and both are the rows-by-columns product Σ_k x(a, k) · w(k, b), so every intermediate array, and the result,
  agree. No law beyond this is needed, and the finiteness of the inputs is not used. The idealization rewrote nothing in
  the kernel, so its soundness statement is trivial.

  The frames of the kernel and of its idealization are the imported generated ones; the reference's frame and both value
  runs are in the modules RefRun, RefKept, KernelRun; the comparison is in Stretches, Dense1, Dense2 and Chain.
-/
import proofs.«165263_j14147622273472_1_alg».proof.Defs
import proofs.«165263_j14147622273472_1_alg».proof.Proof.Gen.Kernel
import proofs.«165263_j14147622273472_1_alg».proof.Proof.Gen.Kernel.Skeleton
import proofs.«165263_j14147622273472_1_alg».proof.Proof.Gen.Kernel.Launch
import proofs.«165263_j14147622273472_1_alg».proof.Proof.Gen.Kernel.Points
import proofs.«165263_j14147622273472_1_alg».proof.Proof.Gen.Kernel.Frame
import proofs.«165263_j14147622273472_1_alg».proof.Proof.Gen.KernelIdeal
import proofs.«165263_j14147622273472_1_alg».proof.Proof.Gen.KernelIdeal.Skeleton
import proofs.«165263_j14147622273472_1_alg».proof.Proof.Gen.KernelIdeal.Launch
import proofs.«165263_j14147622273472_1_alg».proof.Proof.Gen.KernelIdeal.Points
import proofs.«165263_j14147622273472_1_alg».proof.Proof.Gen.KernelIdeal.Frame
import proofs.«165263_j14147622273472_1_alg».proof.Proof.Gen.ReferenceIdeal
import proofs.«165263_j14147622273472_1_alg».proof.Proof.Gen.Pre_finite_inputs
import proofs.«165263_j14147622273472_1_alg».proof.Proof.KernelRun
import proofs.«165263_j14147622273472_1_alg».proof.Proof.RefKept
import proofs.«165263_j14147622273472_1_alg».proof.Proof.Chain
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: a straight line of operations none of which writes an argument. -/
theorem frame_referenceIdeal : Cert.frame_ReferenceIdeal := fun m ρ _ => Cert.ReferenceIdeal.Line.frame (F := Ideal) m ρ

/-- The idealization rewrote no operation of the kernel. -/
theorem preserves : Cert.preserves_Kernel_KernelIdeal := trivial

/-- From memories that agree on the arguments both programs end, with their arguments as launched, holding in their
    result buffers the same array: the kernel's last boundary read at its result buffer. -/
theorem algebraic : Cert.algebraic_KernelIdeal_ReferenceIdeal := by
  intro m ρ m' ρ' _ hagree
  refine ⟨fun c => Cert.KernelIdeal.Gen.W9 m ρ c (Proc.devRef .tc Cert.KernelIdeal.main_v67),
    Cert.KernelIdeal.Valued.run (F := Ideal) m ρ, ?_⟩
  refine (θ_run Cert.ReferenceIdeal.defs _ _).mono (fun _ h c => ?_) (Cert.ReferenceIdeal.Line.run (F := Ideal) m' ρ')
  obtain ⟨h0, h1, h2, h3, h4, h5, h6⟩ := hagree c
  exact ⟨(h c Cert.ReferenceIdeal.main_v67).trans (Cert.Stretches.result_eq m ρ m' c h0 h1 h2 h3 h4 h5 h6).symm,
    (h c Cert.ReferenceIdeal.main_arg0).trans (Cert.ReferenceIdeal.Line.kept_arg0 m' c),
    (h c Cert.ReferenceIdeal.main_arg1).trans (Cert.ReferenceIdeal.Line.kept_arg1 m' c),
    (h c Cert.ReferenceIdeal.main_arg2).trans (Cert.ReferenceIdeal.Line.kept_arg2 m' c),
    (h c Cert.ReferenceIdeal.main_arg3).trans (Cert.ReferenceIdeal.Line.kept_arg3 m' c),
    (h c Cert.ReferenceIdeal.main_arg4).trans (Cert.ReferenceIdeal.Line.kept_arg4 m' c),
    (h c Cert.ReferenceIdeal.main_arg5).trans (Cert.ReferenceIdeal.Line.kept_arg5 m' c),
    (h c Cert.ReferenceIdeal.main_arg6).trans (Cert.ReferenceIdeal.Line.kept_arg6 m' c)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
